-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S5632x2048 : Shape := ⟨2, ![5632, 2048]⟩
abbrev S5632x16 : Shape := ⟨2, ![5632, 16]⟩
abbrev S2048x5632 : Shape := ⟨2, ![2048, 5632]⟩
abbrev S2048x44 : Shape := ⟨2, ![2048, 44]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S5632x16 : S_.BroadcastsInDim S5632x16 (![] : Fin 0 → Fin S5632x16.rank)
  reducesTo_S5632x16_S_d0_1 : S5632x16.ReducesTo [0, 1] S_
  bcast_S_S2048x44 : S_.BroadcastsInDim S2048x44 (![] : Fin 0 → Fin S2048x44.rank)
  reducesTo_S2048x44_S_d0_1 : S2048x44.ReducesTo [0, 1] S_

variable [Facts]

def fn_part1 {F : FTy → Type} [FloatOps F] (main_arg6 : FVec F S5632x16 .f32) (main_arg8 : FVec F S2048x44 .f32) (main_arg9 : FVec F S2048x44 .f32) (main_v13 : IVec S_ 1) (main_v16 : IVec S5632x16 1) : IVec S_ 1 :=
  let main_c_5 : IVec S_ 1 := constantI S_ 1 1#1
  let main_v17 : IVec S_ 1 := (fun x v => Host.reduce IntOp.andi x v reducesTo_S5632x16_S_d0_1 h_S_) main_v16 main_c_5
  let main_v18 : IVec S_ 1 := andi main_v13 main_v17
  let main_v19 : FVec F S5632x16 .f32 := Host.absf main_arg6
  let main_cst_6 : FVec F S_ .f32 := constant S_ .f32 0x7F800000#32
  let main_v20 : FVec F S5632x16 .f32 := broadcastInDim S5632x16 ![] bcast_S_S5632x16 main_cst_6
  let main_v21 : IVec S5632x16 1 := cmpf .olt main_v19 main_v20
  let main_c_7 : IVec S_ 1 := constantI S_ 1 1#1
  let main_v22 : IVec S_ 1 := (fun x v => Host.reduce IntOp.andi x v reducesTo_S5632x16_S_d0_1 h_S_) main_v21 main_c_7
  let main_v23 : IVec S_ 1 := andi main_v18 main_v22
  let main_v24 : FVec F S2048x44 .f32 := Host.absf main_arg8
  let main_cst_8 : FVec F S_ .f32 := constant S_ .f32 0x7F800000#32
  let main_v25 : FVec F S2048x44 .f32 := broadcastInDim S2048x44 ![] bcast_S_S2048x44 main_cst_8
  let main_v26 : IVec S2048x44 1 := cmpf .olt main_v24 main_v25
  let main_c_9 : IVec S_ 1 := constantI S_ 1 1#1
  let main_v27 : IVec S_ 1 := (fun x v => Host.reduce IntOp.andi x v reducesTo_S2048x44_S_d0_1 h_S_) main_v26 main_c_9
  let main_v28 : IVec S_ 1 := andi main_v23 main_v27
  let main_v29 : FVec F S2048x44 .f32 := Host.absf main_arg9
  let main_cst_10 : FVec F S_ .f32 := constant S_ .f32 0x7F800000#32
  let main_v30 : FVec F S2048x44 .f32 := broadcastInDim S2048x44 ![] bcast_S_S2048x44 main_cst_10
  let main_v31 : IVec S2048x44 1 := cmpf .olt main_v29 main_v30
  let main_c_11 : IVec S_ 1 := constantI S_ 1 1#1
  let main_v32 : IVec S_ 1 := (fun x v => Host.reduce IntOp.andi x v reducesTo_S2048x44_S_d0_1 h_S_) main_v31 main_c_11
  let main_v33 : IVec S_ 1 := andi main_v28 main_v32
  main_v33

def fn {F : FTy → Type} [FloatOps F] (main_arg0 : FVec F S8192x2048 .f32) (main_arg1 : IVec S5632x2048 32) (main_arg2 : FVec F S5632x16 .f32) (main_arg3 : FVec F S5632x16 .f32) (main_arg4 : IVec S5632x2048 32) (main_arg5 : FVec F S5632x16 .f32) (main_arg6 : FVec F S5632x16 .f32) (main_arg7 : IVec S2048x5632 32) (main_arg8 : FVec F S2048x44 .f32) (main_arg9 : FVec F S2048x44 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S5632x16 .f32 := Host.absf main_arg2
  let main_cst_0 : FVec F S_ .f32 := constant S_ .f32 0x7F800000#32
  let main_v5 : FVec F S5632x16 .f32 := broadcastInDim S5632x16 ![] bcast_S_S5632x16 main_cst_0
  let main_v6 : IVec S5632x16 1 := cmpf .olt main_v4 main_v5
  let main_c_1 : IVec S_ 1 := constantI S_ 1 1#1
  let main_v7 : IVec S_ 1 := (fun x v => Host.reduce IntOp.andi x v reducesTo_S5632x16_S_d0_1 h_S_) main_v6 main_c_1
  let main_v8 : IVec S_ 1 := andi main_v3 main_v7
  let main_v9 : FVec F S5632x16 .f32 := Host.absf main_arg3
  let main_cst_2 : FVec F S_ .f32 := constant S_ .f32 0x7F800000#32
  let main_v10 : FVec F S5632x16 .f32 := broadcastInDim S5632x16 ![] bcast_S_S5632x16 main_cst_2
  let main_v11 : IVec S5632x16 1 := cmpf .olt main_v9 main_v10
  let main_c_3 : IVec S_ 1 := constantI S_ 1 1#1
  let main_v12 : IVec S_ 1 := (fun x v => Host.reduce IntOp.andi x v reducesTo_S5632x16_S_d0_1 h_S_) main_v11 main_c_3
  let main_v13 : IVec S_ 1 := andi main_v8 main_v12
  let main_v14 : FVec F S5632x16 .f32 := Host.absf main_arg5
  let main_cst_4 : FVec F S_ .f32 := constant S_ .f32 0x7F800000#32
  let main_v15 : FVec F S5632x16 .f32 := broadcastInDim S5632x16 ![] bcast_S_S5632x16 main_cst_4
  let main_v16 : IVec S5632x16 1 := cmpf .olt main_v14 main_v15
  fn_part1 (F := F) main_arg6 main_arg8 main_arg9 main_v13 main_v16
-- ==== Kernel.lean ====
abbrev S8192x2048 : Shape := ⟨2, ![8192, 2048]⟩
abbrev S5632x2048 : Shape := ⟨2, ![5632, 2048]⟩
abbrev S5632x16 : Shape := ⟨2, ![5632, 16]⟩
abbrev S2048x5632 : Shape := ⟨2, ![2048, 5632]⟩
abbrev S2048x44 : Shape := ⟨2, ![2048, 44]⟩
abbrev S8192x5632 : Shape := ⟨2, ![8192, 5632]⟩
abbrev S512x2048 : Shape := ⟨2, ![512, 2048]⟩
abbrev S512x16 : Shape := ⟨2, ![512, 16]⟩
abbrev S512x512 : Shape := ⟨2, ![512, 512]⟩
abbrev S512x16x128 : Shape := ⟨3, ![512, 16, 128]⟩
abbrev S512x16x1 : Shape := ⟨3, ![512, 16, 1]⟩
abbrev S512x5632 : Shape := ⟨2, ![512, 5632]⟩
abbrev S256x5632 : Shape := ⟨2, ![256, 5632]⟩
abbrev S256x44 : Shape := ⟨2, ![256, 44]⟩
abbrev S512x256 : Shape := ⟨2, ![512, 256]⟩
abbrev S256x44x128 : Shape := ⟨3, ![256, 44, 128]⟩
abbrev S256x44x1 : Shape := ⟨3, ![256, 44, 1]⟩

abbrev nBuf : Space → Nat
  | .hbm => 12
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S5632x2048, .i32⟩
  | .hbm, ⟨2, _⟩ => ⟨S5632x16, .f32⟩
  | .hbm, ⟨3, _⟩ => ⟨S5632x16, .f32⟩
  | .hbm, ⟨4, _⟩ => ⟨S5632x2048, .i32⟩
  | .hbm, ⟨5, _⟩ => ⟨S5632x16, .f32⟩
  | .hbm, ⟨6, _⟩ => ⟨S5632x16, .f32⟩
  | .hbm, ⟨7, _⟩ => ⟨S2048x5632, .i32⟩
  | .hbm, ⟨8, _⟩ => ⟨S2048x44, .f32⟩
  | .hbm, ⟨9, _⟩ => ⟨S2048x44, .f32⟩
  | .hbm, ⟨10, _⟩ => ⟨S8192x5632, .bf16⟩
  | .hbm, ⟨11, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S512x16, .f32⟩
  | .local _ .vmem, ⟨5, _⟩ => ⟨S512x16, .f32⟩
  | .local _ .vmem, ⟨6, _⟩ => ⟨S512x16, .f32⟩
  | .local _ .vmem, ⟨7, _⟩ => ⟨S512x16, .f32⟩
  | .local _ .vmem, ⟨8, _⟩ => ⟨S512x2048, .i32⟩
  | .local _ .vmem, ⟨9, _⟩ => ⟨S512x2048, .i32⟩
  | .local _ .vmem, ⟨10, _⟩ => ⟨S512x16, .f32⟩
  | .local _ .vmem, ⟨11, _⟩ => ⟨S512x16, .f32⟩
  | .local _ .vmem, ⟨12, _⟩ => ⟨S512x16, .f32⟩
  | .local _ .vmem, ⟨13, _⟩ => ⟨S512x16, .f32⟩
  | .local _ .vmem, ⟨14, _⟩ => ⟨S512x512, .bf16⟩
  | .local _ .vmem, ⟨15, _⟩ => ⟨S512x512, .bf16⟩
  | .local _ .vmem, ⟨16, _⟩ => ⟨S512x5632, .bf16⟩
  | .local _ .vmem, ⟨17, _⟩ => ⟨S512x5632, .bf16⟩
  | .local _ .vmem, ⟨18, _⟩ => ⟨S256x5632, .i32⟩
  | .local _ .vmem, ⟨19, _⟩ => ⟨S256x5632, .i32⟩
  | .local _ .vmem, ⟨20, _⟩ => ⟨S256x44, .f32⟩
  | .local _ .vmem, ⟨21, _⟩ => ⟨S256x44, .f32⟩
  | .local _ .vmem, ⟨22, _⟩ => ⟨S256x44, .f32⟩
  | .local _ .vmem, ⟨23, _⟩ => ⟨S256x44, .f32⟩
  | .local _ .vmem, ⟨24, _⟩ => ⟨S512x256, .f32⟩
  | .local _ .vmem, ⟨25, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x5632 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x44 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x44 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S512x2048_S512x2048_0_0 : ∀ a, (![0, 0] : Fin 2 → Nat) a + S512x2048.size a ≤ S512x2048.size a
  h_S512x2048 : 0 < S512x2048.numel
  shapeCasts_S512x2048_S512x16x128 : S512x2048.ShapeCasts S512x16x128
  inb_S512x16_S512x16_0_0 : ∀ a, (![0, 0] : Fin 2 → Nat) a + S512x16.size a ≤ S512x16.size a
  h_S512x16 : 0 < S512x16.numel
  shapeCasts_S512x16_S512x16x1 : S512x16.ShapeCasts S512x16x1
  broadcasts_S512x16x1_S512x16x128 : S512x16x1.Broadcasts S512x16x128
  shapeCasts_S512x16x128_S512x2048 : S512x16x128.ShapeCasts S512x2048
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S256x5632_S256x5632_0_0 : ∀ a, (![0, 0] : Fin 2 → Nat) a + S256x5632.size a ≤ S256x5632.size a
  h_S256x5632 : 0 < S256x5632.numel
  shapeCasts_S256x5632_S256x44x128 : S256x5632.ShapeCasts S256x44x128
  inb_S256x44_S256x44_0_0 : ∀ a, (![0, 0] : Fin 2 → Nat) a + S256x44.size a ≤ S256x44.size a
  h_S256x44 : 0 < S256x44.numel
  shapeCasts_S256x44_S256x44x1 : S256x44.ShapeCasts S256x44x1
  broadcasts_S256x44x1_S256x44x128 : S256x44x1.Broadcasts S256x44x128
  shapeCasts_S256x44x128_S256x5632 : S256x44x128.ShapeCasts S256x5632
  inb_S512x5632_S512x5632_0_0 : ∀ a, (![0, 0] : Fin 2 → Nat) a + S512x5632.size a ≤ S512x5632.size a
  h_S512x5632 : 0 < S512x5632.numel
  shapeCasts_S512x5632_S512x5632 : S512x5632.ShapeCasts S512x5632
  inb_S512x256_S512x256_0_0 : ∀ a, (![0, 0] : Fin 2 → Nat) a + S512x256.size a ≤ S512x256.size a
  h_S512x256 : 0 < S512x256.numel
  dot_S512x2048_S512x2048_S512x512_1_1_0_0_n_n_wf : DotDims.WF S512x2048 S512x2048 S512x512 [1] [1] [0] [0] [] []
  dot_S512x5632_S256x5632_S512x256_1_1_0_0_n_n_wf : DotDims.WF S512x5632 S256x5632 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S5632x2048.size a
  hwx0_1 : ∀ i : grid0.Coords, EltTy.bits .i32 = 32 ∨ (Rect.block (s := S5632x2048) S512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S5632x16.size a
  hwx0_2 : ∀ i : grid0.Coords, EltTy.bits .f32 = 32 ∨ (Rect.block (s := S5632x16) S512x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S5632x16.size a
  hwx0_3 : ∀ i : grid0.Coords, EltTy.bits .f32 = 32 ∨ (Rect.block (s := S5632x16) S512x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S5632x2048.size a
  hwx0_4 : ∀ i : grid0.Coords, EltTy.bits .i32 = 32 ∨ (Rect.block (s := S5632x2048) S512x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x16.size a ≤ S5632x16.size a
  hwx0_5 : ∀ i : grid0.Coords, EltTy.bits .f32 = 32 ∨ (Rect.block (s := S5632x16) S512x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x16.size a ≤ S5632x16.size a
  hwx0_6 : ∀ i : grid0.Coords, EltTy.bits .f32 = 32 ∨ (Rect.block (s := S5632x16) S512x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S8192x5632.size a
  hwx0_7 : ∀ i : grid0.Coords, EltTy.bits .bf16 = 32 ∨ (Rect.block (s := S8192x5632) S512x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x5632.size a ≤ S8192x5632.size a
  hwx1_0 : ∀ i : grid1.Coords, EltTy.bits .bf16 = 32 ∨ (Rect.block (s := S8192x5632) S512x5632.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x5632.size a ≤ S2048x5632.size a
  hwx1_1 : ∀ i : grid1.Coords, EltTy.bits .i32 = 32 ∨ (Rect.block (s := S2048x5632) S256x5632.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x44.size a ≤ S2048x44.size a
  hwx1_2 : ∀ i : grid1.Coords, EltTy.bits .f32 = 32 ∨ (Rect.block (s := S2048x44) S256x44.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x44.size a ≤ S2048x44.size a
  hwx1_3 : ∀ i : grid1.Coords, EltTy.bits .f32 = 32 ∨ (Rect.block (s := S2048x44) S256x44.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S8192x2048.size a
  hwx1_4 : ∀ i : grid1.Coords, EltTy.bits .f32 = 32 ∨ (Rect.block (s := S8192x2048) S512x256.size (cc1_transform_4 i) (hinb1_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x5632_S256x5632_S512x256_1_1_0_0_n_n : DotDims S512x5632 S256x5632 S512x256 where
  lhsContracting := [1]
  rhsContracting := [1]
  lhsNonContracting := [0]
  rhsNonContracting := [0]
  lhsBatch := []
  rhsBatch := []
  wf := dot_S512x5632_S256x5632_S512x256_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x16.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x16.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v0) S512x5632.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x5632.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256x44.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x44.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S5632x2048 : Shape := ⟨2, ![5632, 2048]⟩
abbrev S5632x16 : Shape := ⟨2, ![5632, 16]⟩
abbrev S2048x5632 : Shape := ⟨2, ![2048, 5632]⟩
abbrev S2048x44 : Shape := ⟨2, ![2048, 44]⟩
abbrev S5632x16x128 : Shape := ⟨3, ![5632, 16, 128]⟩
abbrev S5632x16x1 : Shape := ⟨3, ![5632, 16, 1]⟩
abbrev S2048x44x128 : Shape := ⟨3, ![2048, 44, 128]⟩
abbrev S2048x44x1 : Shape := ⟨3, ![2048, 44, 1]⟩
abbrev S8192x5632 : Shape := ⟨2, ![8192, 5632]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S5632x2048, .i32⟩
  | .hbm, ⟨2, _⟩ => ⟨S5632x16, .f32⟩
  | .hbm, ⟨3, _⟩ => ⟨S5632x16, .f32⟩
  | .hbm, ⟨4, _⟩ => ⟨S5632x2048, .i32⟩
  | .hbm, ⟨5, _⟩ => ⟨S5632x16, .f32⟩
  | .hbm, ⟨6, _⟩ => ⟨S5632x16, .f32⟩
  | .hbm, ⟨7, _⟩ => ⟨S2048x5632, .i32⟩
  | .hbm, ⟨8, _⟩ => ⟨S2048x44, .f32⟩
  | .hbm, ⟨9, _⟩ => ⟨S2048x44, .f32⟩
  | .hbm, ⟨10, _⟩ => ⟨S5632x2048, .f32⟩
  | .hbm, ⟨11, _⟩ => ⟨S5632x16x128, .f32⟩
  | .hbm, ⟨12, _⟩ => ⟨S5632x16x1, .f32⟩
  | .hbm, ⟨13, _⟩ => ⟨S5632x16x128, .f32⟩
  | .hbm, ⟨14, _⟩ => ⟨S5632x16x128, .f32⟩
  | .hbm, ⟨15, _⟩ => ⟨S5632x16x1, .f32⟩
  | .hbm, ⟨16, _⟩ => ⟨S5632x16x128, .f32⟩
  | .hbm, ⟨17, _⟩ => ⟨S5632x16x128, .f32⟩
  | .hbm, ⟨18, _⟩ => ⟨S5632x2048, .f32⟩
  | .hbm, ⟨19, _⟩ => ⟨S5632x2048, .f32⟩
  | .hbm, ⟨20, _⟩ => ⟨S5632x16x128, .f32⟩
  | .hbm, ⟨21, _⟩ => ⟨S5632x16x1, .f32⟩
  | .hbm, ⟨22, _⟩ => ⟨S5632x16x128, .f32⟩
  | .hbm, ⟨23, _⟩ => ⟨S5632x16x128, .f32⟩
  | .hbm, ⟨24, _⟩ => ⟨S5632x16x1, .f32⟩
  | .hbm, ⟨25, _⟩ => ⟨S5632x16x128, .f32⟩
  | .hbm, ⟨26, _⟩ => ⟨S5632x16x128, .f32⟩
  | .hbm, ⟨27, _⟩ => ⟨S5632x2048, .f32⟩
  | .hbm, ⟨28, _⟩ => ⟨S2048x5632, .f32⟩
  | .hbm, ⟨29, _⟩ => ⟨S2048x44x128, .f32⟩
  | .hbm, ⟨30, _⟩ => ⟨S2048x44x1, .f32⟩
  | .hbm, ⟨31, _⟩ => ⟨S2048x44x128, .f32⟩
  | .hbm, ⟨32, _⟩ => ⟨S2048x44x128, .f32⟩
  | .hbm, ⟨33, _⟩ => ⟨S2048x44x1, .f32⟩
  | .hbm, ⟨34, _⟩ => ⟨S2048x44x128, .f32⟩
  | .hbm, ⟨35, _⟩ => ⟨S2048x44x128, .f32⟩
  | .hbm, ⟨36, _⟩ => ⟨S2048x5632, .f32⟩
  | .hbm, ⟨37, _⟩ => ⟨S2048x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S_, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S2048x5632, .f32⟩
  | .hbm, ⟨49, _⟩ => ⟨S8192x5632, .f32⟩
  | .hbm, ⟨50, _⟩ => ⟨S8192x5632, .f32⟩
  | .hbm, ⟨51, _⟩ => ⟨S5632x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  shapeCasts_S5632x2048_S5632x16x128 : S5632x2048.ShapeCasts S5632x16x128
  bcast_S5632x16_S5632x16x1_0_1 : S5632x16.BroadcastsInDim S5632x16x1 (![0, 1] : Fin 2 → Fin S5632x16x1.rank)
  bcast_S5632x16x1_S5632x16x128_0_1_2 : S5632x16x1.BroadcastsInDim S5632x16x128 (![0, 1, 2] : Fin 3 → Fin S5632x16x128.rank)
  shapeCasts_S5632x16x128_S5632x2048 : S5632x16x128.ShapeCasts S5632x2048
  shapeCasts_S2048x5632_S2048x44x128 : S2048x5632.ShapeCasts S2048x44x128
  bcast_S2048x44_S2048x44x1_0_1 : S2048x44.BroadcastsInDim S2048x44x1 (![0, 1] : Fin 2 → Fin S2048x44x1.rank)
  bcast_S2048x44x1_S2048x44x128_0_1_2 : S2048x44x1.BroadcastsInDim S2048x44x128 (![0, 1, 2] : Fin 3 → Fin S2048x44x128.rank)
  shapeCasts_S2048x44x128_S2048x5632 : S2048x44x128.ShapeCasts S2048x5632
  transposes_S5632x2048_S2048x5632_1_0 : S5632x2048.Transposes [1, 0] S2048x5632
  bcast_S_S8192x5632 : S_.BroadcastsInDim S8192x5632 (![] : Fin 0 → Fin S8192x5632.rank)
  transposes_S2048x5632_S5632x2048_1_0 : S2048x5632.Transposes [1, 0] S5632x2048
  dot_S8192x2048_S2048x5632_S8192x5632_1_0_0_1_n_n_wf : DotDims.WF S8192x2048 S2048x5632 S8192x5632 [1] [0] [0] [1] [] []
  dot_S8192x5632_S5632x2048_S8192x2048_1_0_0_1_n_n_wf : DotDims.WF S8192x5632 S5632x2048 S8192x2048 [1] [0] [0] [1] [] []

variable [Facts₀]

def dot_S8192x2048_S2048x5632_S8192x5632_1_0_0_1_n_n : DotDims S8192x2048 S2048x5632 S8192x5632 where
  lhsContracting := [1]
  rhsContracting := [0]
  lhsNonContracting := [0]
  rhsNonContracting := [1]
  lhsBatch := []
  rhsBatch := []
  wf := dot_S8192x2048_S2048x5632_S8192x5632_1_0_0_1_n_n_wf
def dot_S8192x5632_S5632x2048_S8192x2048_1_0_0_1_n_n : DotDims S8192x5632 S5632x2048 S8192x2048 where
  lhsContracting := [1]
  rhsContracting := [0]
  lhsNonContracting := [0]
  rhsNonContracting := [1]
  lhsBatch := []
  rhsBatch := []
  wf := dot_S8192x5632_S5632x2048_S8192x2048_1_0_0_1_n_n_wf

class Facts : Prop extends Facts₀ where

variable [Facts]
-- ==== Proof.LibDequant.lean ====
/- Group-wise affine dequantization, read at coordinates, on the extended reals, for any extents.
   A matrix of integer codes with R rows and C = G·128 columns is cut along each row into G groups of 128 columns;
   a scale and a zero point are given per (row, group). The dequantized entry at (r, c) is
   (code(r, c) − zero(r, c / 128)) · scale(r, c / 128).
   The usual way to compute it lays the codes out as [R, G, 128], spreads the two [R, G] tables along the last axis
   through [R, G, 1], subtracts, multiplies, and lays the result out as [R, C] again. Read at (r, c) that chain of layout
   operations is the entry above: the column c sits in group c / 128 at place c % 128, and
   (r·G + c / 128)·128 + c % 128 = r·C + c. Nothing here depends on a particular program. -/
import Idealize.ShloMosaic.PureOps.Ideal
import Idealize.ShloMosaic.Lib.ValueIdx
import Idealize.ShloMosaic.Lib.Pipeline.Value

noncomputable section

open Idealize.ShloMosaic Idealize.ShloMosaic.ValueIdx

namespace Cert.Lib.Dequant

/-- The group a column belongs to: groups are runs of 128 consecutive columns. -/
def grp {G C : ℕ} (hC : C = G * 128) (c : Fin C) : Fin G := ⟨c.val / 128, by have := c.isLt; omega⟩

theorem grp_val {G C : ℕ} (hC : C = G * 128) (c : Fin C) : (grp hC c).val = c.val / 128 := rfl

/-- Entry (r, c) of the dequantized matrix: the code, read as a signed integer, minus the zero point of the column's
    group, times the scale of that group. -/
def deq {R G C : ℕ} (hC : C = G * 128) (q : IVec ⟨2, ![R, C]⟩ 32) (s z : FVec Ideal ⟨2, ![R, G]⟩ .f32)
    (r : Fin R) (c : Fin C) : EReal :=
  ((FloatOps.sitofp (F := Ideal) .f32 (q (ix2 r c)) : EReal) - z (ix2 r (grp hC c))) * s (ix2 r (grp hC c))

/-- An [R, G] table laid out as [R, G, 1] and spread along a last axis of 128, read at (r, g, l), is its entry (r, g). -/
theorem spread_apply {α : Type} {R G : ℕ} (x : (⟨2, ![R, G]⟩ : Shape).Idx → α)
    (h2 : (⟨2, ![R, G]⟩ : Shape).ShapeCasts ⟨3, ![R, G, 1]⟩)
    (h3 : (⟨3, ![R, G, 1]⟩ : Shape).Broadcasts ⟨3, ![R, G, 128]⟩) (r : Fin R) (g : Fin G) (l : Fin 128) :
    broadcastTo ⟨3, ![R, G, 128]⟩ (shapeCast ⟨3, ![R, G, 1]⟩ x h2) h3 (ix3 r g l) = x (ix2 r g) := by
  refine (broadcastTo_apply _ h3 (ix3 r g l) (ix3 r g (0 : Fin 1)) fun a => ?_).trans ?_
  · match a with
    | ⟨0, _⟩ =>
      show r.val = if R = 1 then 0 else r.val
      split
      · have := r.isLt; omega
      · rfl
    | ⟨1, _⟩ =>
      show g.val = if G = 1 then 0 else g.val
      split
      · have := g.isLt; omega
      · rfl
    | ⟨2, _⟩ => rfl
  · refine shapeCast_apply x h2 (ix3 r g (0 : Fin 1)) (ix2 r g) ?_
    rw [Shape.rowMajor_val_two, Shape.rowMajor_val_three]
    show r.val * G + g.val = (r.val * G + g.val) * 1 + 0
    omega

/-- The layout chain that dequantizes a block of codes, read at (r, c), is the dequantized entry (r, c). -/
theorem chain_apply {R G C : ℕ} (hC : C = G * 128) (q : IVec ⟨2, ![R, C]⟩ 32) (s z : FVec Ideal ⟨2, ![R, G]⟩ .f32)
    (h1 : (⟨2, ![R, C]⟩ : Shape).ShapeCasts ⟨3, ![R, G, 128]⟩)
    (h2 : (⟨2, ![R, G]⟩ : Shape).ShapeCasts ⟨3, ![R, G, 1]⟩)
    (h3 : (⟨3, ![R, G, 1]⟩ : Shape).Broadcasts ⟨3, ![R, G, 128]⟩)
    (h4 : (⟨3, ![R, G, 128]⟩ : Shape).ShapeCasts ⟨2, ![R, C]⟩) (r : Fin R) (c : Fin C) :
    shapeCast ⟨2, ![R, C]⟩
        (mulf (subf (shapeCast ⟨3, ![R, G, 128]⟩ (sitofp (F := Ideal) .f32 q) h1)
                (broadcastTo ⟨3, ![R, G, 128]⟩ (shapeCast ⟨3, ![R, G, 1]⟩ z h2) h3))
          (broadcastTo ⟨3, ![R, G, 128]⟩ (shapeCast ⟨3, ![R, G, 1]⟩ s h2) h3)) h4 (ix2 r c)
      = deq hC q s z r c := by
  have hpos : (r.val * G + c.val / 128) * 128 + c.val % 128 = r.val * C + c.val := by
    subst hC
    have := Nat.div_add_mod c.val 128
    rw [Nat.add_mul, Nat.mul_assoc, Nat.add_assoc]
    omega
  refine (shapeCast_apply _ h4 (ix2 r c) (ix3 r (grp hC c) ⟨c.val % 128, Nat.mod_lt _ (by decide)⟩) ?_).trans ?_
  · rw [Shape.rowMajor_val_three, Shape.rowMajor_val_two]
    exact hpos
  · show (shapeCast ⟨3, ![R, G, 128]⟩ (sitofp (F := Ideal) .f32 q) h1 (ix3 r (grp hC c) ⟨c.val % 128, _⟩)
          - broadcastTo ⟨3, ![R, G, 128]⟩ (shapeCast ⟨3, ![R, G, 1]⟩ z h2) h3 (ix3 r (grp hC c) ⟨c.val % 128, _⟩))
        * broadcastTo ⟨3, ![R, G, 128]⟩ (shapeCast ⟨3, ![R, G, 1]⟩ s h2) h3 (ix3 r (grp hC c) ⟨c.val % 128, _⟩) = _
    rw [spread_apply z h2 h3, spread_apply s h2 h3,
      shapeCast_apply (sitofp (F := Ideal) .f32 q) h1 _ (ix2 r c)
        (by rw [Shape.rowMajor_val_three, Shape.rowMajor_val_two]; exact hpos.symm)]
    rfl

end Cert.Lib.Dequant

end
-- ==== Proof.Spec.lean ====
/- The function both programs compute, on the extended reals: a gated feed-forward block over group-quantized weights.
   With x the [8192, 2048] tokens and Wg, Wu the [5632, 2048] gate and up weights, Wd the [2048, 5632] down weights, each
   dequantized entry by entry as (code − zero point of the column's group) · scale of that group (groups of 128 columns):
     y(t, i)   = swi(Σ_k x(t, k) · Wg(i, k), Σ_k x(t, k) · Wu(i, k)),   swi(a, b) = (a · logistic a) · b,
     out(t, h) = Σ_i y(t, i) · Wd(h, i).
   Each sum runs over its whole axis in the index order, so no rearrangement of sums and no finiteness is involved. -/
import proofs.«179575_j12352325943572_1_alg».proof.Proof.LibDequant

noncomputable section

open scoped BigOperators

open Idealize.ShloMosaic Idealize.ShloMosaic.ValueIdx Cert.Lib.Dequant

namespace Cert.Swiglu

/-- The gated activation of one entry: a · logistic a, times the up projection b. -/
def swi (a b : EReal) : EReal := (a * Ideal.logistic a) * b

/-- Entry (t, i) of the intermediate: token row t against dequantized gate row i and up row i. -/
def gateUpAt (x : FVec Ideal ⟨2, ![8192, 2048]⟩ .f32)
    (qg : IVec ⟨2, ![5632, 2048]⟩ 32) (sg zg : FVec Ideal ⟨2, ![5632, 16]⟩ .f32)
    (qu : IVec ⟨2, ![5632, 2048]⟩ 32) (su zu : FVec Ideal ⟨2, ![5632, 16]⟩ .f32) (t : Fin 8192) (i : Fin 5632) : EReal :=
  swi (∑ k : Fin 2048, x (ix2 t k) * deq (G := 16) rfl qg sg zg i k)
    (∑ k : Fin 2048, x (ix2 t k) * deq (G := 16) rfl qu su zu i k)

/-- The intermediate as one array. -/
def gateUp (x : FVec Ideal ⟨2, ![8192, 2048]⟩ .f32)
    (qg : IVec ⟨2, ![5632, 2048]⟩ 32) (sg zg : FVec Ideal ⟨2, ![5632, 16]⟩ .f32)
    (qu : IVec ⟨2, ![5632, 2048]⟩ 32) (su zu : FVec Ideal ⟨2, ![5632, 16]⟩ .f32) :
    (⟨2, ![8192, 5632]⟩ : Shape).Idx → EReal :=
  fun j => gateUpAt x qg sg zg qu su zu (j 0) (j 1)

/-- Entry (t, h) of the result: row t of an intermediate y against dequantized down row h. -/
def downAt (y : (⟨2, ![8192, 5632]⟩ : Shape).Idx → EReal)
    (qd : IVec ⟨2, ![2048, 5632]⟩ 32) (sd zd : FVec Ideal ⟨2, ![2048, 44]⟩ .f32) (t : Fin 8192) (h : Fin 2048) : EReal :=
  ∑ k : Fin 5632, y (ix2 t k) * deq (G := 44) rfl qd sd zd h k

/-- The result as one array. -/
def down (y : (⟨2, ![8192, 5632]⟩ : Shape).Idx → EReal)
    (qd : IVec ⟨2, ![2048, 5632]⟩ 32) (sd zd : FVec Ideal ⟨2, ![2048, 44]⟩ .f32) :
    (⟨2, ![8192, 2048]⟩ : Shape).Idx → EReal :=
  fun j => downAt y qd sd zd (j 0) (j 1)

end Cert.Swiglu

end
-- ==== Proof.LibDotReads.lean ====
/- Contractions and two column layouts read at coordinates, on the extended reals, for any extents.
   A matrix product into the zero accumulator, read at (p, c), is one sum over the contraction coordinate k:
   of left(k, p) · right(c, k) when the left operand is contracted on its first axis and the right on its last;
   of left(p, k) · right(c, k) when both are contracted on their last axis. The host's product with the plain
   dimension numbers (rows × contraction by contraction × columns), which has no accumulator, is the sum of
   left(p, k) · right(k, c). A vector of a entries cast to an [a, 1] column reads its entry i at (i, 0), and a
   [1, 1] value broadcast along a row of b entries reads its one entry everywhere. Nothing here depends on a
   particular program: a printed record with the same axis lists is the record used here by `rfl`. -/
import Idealize.ShloMosaic.PureOps.Ideal
import Idealize.ShloMosaic.PureOps.Ideal.Laws
import Idealize.ShloMosaic.Lib.ValueIdx
import Idealize.ShloMosaic.Lib.Pipeline.Value

noncomputable section

open scoped BigOperators

open Idealize.ShloMosaic Idealize.ShloMosaic.ValueIdx

namespace Cert.Lib.DotReads

/-- The dimension numbers of a [K, M] matrix contracted on its FIRST axis with an [N, K] matrix contracted on its
    LAST axis, giving [M, N]: result (p, c) pairs the left operand's column p with the right operand's row c. -/
def firstLast (M K N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

/-- Left contracted on its first axis, right on its last, into the zero accumulator, at (p, c): the sum over k of
    left(k, p) · right(c, k). -/
theorem firstLast_matmul_zero_apply {M K N : ℕ} {φ₁ φ₂ : FTy} (l : FVec Ideal ⟨2, ![K, M]⟩ φ₁) (r : FVec Ideal ⟨2, ![N, K]⟩ φ₂)
    (p : Fin M) (c : Fin N) :
    FloatOps.matmul (firstLast M K N) none l r (constant (F := Ideal) ⟨2, ![M, N]⟩ .f32 0x00000000#32) (ix2 p c)
      = ∑ k : Fin K, l (ix2 k p) * r (ix2 c k) := by
  rw [Ideal.matmul_constant_zero_apply, ← Equiv.sum_comp (contrEquiv1 (firstLast M K N) K rfl rfl).symm]
  refine Finset.sum_congr rfl fun k _ => ?_
  have hk := contrEquiv1_symm_val (firstLast M K N) K rfl rfl k
  have el : (firstLast M K N).lhsIdx (ix2 p c) ((contrEquiv1 (firstLast M K N) K rfl rfl).symm k) = ix2 k p :=
    funext fun a => Fin.ext (by
      match a with
      | ⟨0, _⟩ => exact ((firstLast M K N).lhsIdx_val_of_single rfl _ _).trans hk
      | ⟨1, _⟩ => rfl)
  have er : (firstLast M K N).rhsIdx (ix2 p c) ((contrEquiv1 (firstLast M K N) K rfl rfl).symm k) = ix2 c k :=
    funext fun a => Fin.ext (by
      match a with
      | ⟨0, _⟩ => rfl
      | ⟨1, _⟩ => exact ((firstLast M K N).rhsIdx_val_of_single rfl _ _).trans hk)
  rw [el, er]

/-- Both operands contracted on their last axis, into the zero accumulator, at (p, c): the sum over k of
    left(p, k) · right(c, k). -/
theorem lastLast_matmul_zero_apply {M K N : ℕ} {φ₁ φ₂ : FTy} (l : FVec Ideal ⟨2, ![M, K]⟩ φ₁) (r : FVec Ideal ⟨2, ![N, K]⟩ φ₂)
    (p : Fin M) (c : Fin N) :
    FloatOps.matmul (DotDims.transposedRhs M K N) none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => rfl
      | ⟨1, _⟩ => exact ((DotDims.transposedRhs M K N).rhsIdx_val_of_single rfl _ _).trans hk)
  rw [el, er]

/-- The host's product with the plain dimension numbers, at (p, c): the sum over k of left(p, k) · right(k, c). -/
theorem plain_dotGeneral_apply {M K N : ℕ} {φ₁ φ₂ : FTy} (sched : HostSchedule) (l : FVec Ideal ⟨2, ![M, K]⟩ φ₁)
    (r : FVec Ideal ⟨2, ![K, N]⟩ φ₂) (p : Fin M) (c : Fin N) :
    FloatOps.dotGeneral (DotDims.plain M K N) none sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A vector of a entries cast to an [a, 1] column reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] value broadcast along a row of b entries reads its one entry at every (u, c). -/
theorem broadcastTo_11_1b_apply {α : Type} {b : ℕ} (v : (⟨2, ![1, 1]⟩ : Shape).Idx → α)
    (h : (⟨2, ![1, 1]⟩ : Shape).Broadcasts ⟨2, ![1, b]⟩) (u : Fin 1) (c : Fin b) :
    broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

end Cert.Lib.DotReads

end
-- ==== Proof.Tiles.lean ====
/- One tile of each of the two kernels, read at a coordinate, on the extended reals.
   First kernel: a tile of 512 tokens against 512 rows of the gate and up weights. Entry (p, c) of what the tile stores is
   swi(a, b) = (a · logistic a) · b, where a = Σ_k x(p, k) · Wg(c, k) and b = Σ_k x(p, k) · Wu(c, k) run over the whole
   hidden axis k < 2048, and Wg, Wu are the dequantized gate and up rows of the tile (code − zero point) · scale, by groups
   of 128 columns. Second kernel: a tile of 512 tokens against 256 rows of the down weights; entry (p, c) is
   Σ_k y(p, k) · Wd(c, k) over the whole intermediate axis k < 5632. Changes of float format are the identity here, and a
   matrix product into the zero accumulator is the plain sum. -/
import proofs.«179575_j12352325943572_1_alg».proof.Proof.Gen.KernelIdeal.Skeleton
import proofs.«179575_j12352325943572_1_alg».proof.Proof.Spec
import proofs.«179575_j12352325943572_1_alg».proof.Proof.LibDotReads

noncomputable section

open scoped BigOperators

open Idealize.ShloMosaic Idealize.ShloMosaic.ValueIdx Cert.Lib.Dequant Cert.Lib.DotReads

namespace Cert.Swiglu

/-- A token tile l against two weight tiles rg, ru, both contracted on their last axis, gated and rounded for
    storage: entry (p, c) is swi of the two dot products of token row p with weight rows c. -/
theorem gated_tile_apply {M K N : ℕ} (D : DotDims ⟨2, ![M, K]⟩ ⟨2, ![N, K]⟩ ⟨2, ![M, N]⟩)
    (hD : D = DotDims.transposedRhs M K N) (l : FVec Ideal ⟨2, ![M, K]⟩ .bf16) (rg ru : FVec Ideal ⟨2, ![N, K]⟩ .bf16)
    (h : FTy.bf16.bits < FTy.f32.bits) (p : Fin M) (c : Fin N) :
    truncf .bf16
        (mulf (mulf (matmul D none l rg (constant (F := Ideal) ⟨2, ![M, N]⟩ .f32 0x00000000#32))
            (logistic (matmul D none l rg (constant (F := Ideal) ⟨2, ![M, N]⟩ .f32 0x00000000#32))))
          (matmul D none l ru (constant (F := Ideal) ⟨2, ![M, N]⟩ .f32 0x00000000#32))) h (ix2 p c)
      = swi (∑ k : Fin K, l (ix2 p k) * rg (ix2 c k)) (∑ k : Fin K, l (ix2 p k) * ru (ix2 c k)) := by
  subst hD
  show (FloatOps.matmul (DotDims.transposedRhs M K N) none l rg (constant (F := Ideal) ⟨2, ![M, N]⟩ .f32 0x00000000#32) (ix2 p c)
        * Ideal.logistic (FloatOps.matmul (DotDims.transposedRhs M K N) none l rg (constant (F := Ideal) ⟨2, ![M, N]⟩ .f32 0x00000000#32) (ix2 p c)))
      * FloatOps.matmul (DotDims.transposedRhs M K N) none l ru (constant (F := Ideal) ⟨2, ![M, N]⟩ .f32 0x00000000#32) (ix2 p c) = _
  rw [lastLast_matmul_zero_apply, lastLast_matmul_zero_apply]
  rfl

/-- What the first kernel stores for a tile, at (p, c): swi of token row p against the dequantized gate row c and the
    dequantized up row c of the tile. -/
theorem gateUp_tile_apply (qg : Vec Ideal Cert.KernelIdeal.S512x2048 .i32) (sg zg : Vec Ideal Cert.KernelIdeal.S512x16 .f32)
    (qu : Vec Ideal Cert.KernelIdeal.S512x2048 .i32) (su zu : Vec Ideal Cert.KernelIdeal.S512x16 .f32)
    (x : Vec Ideal Cert.KernelIdeal.S512x2048 .f32) [Cert.KernelIdeal.Facts] (p c : Fin 512) :
    Cert.KernelIdeal.Gen.k0_pay1 (F := Ideal) qg sg zg qu su zu x (ix2 p c)
      = swi (∑ k : Fin 2048, x (ix2 p k) * deq (G := 16) rfl qg sg zg c k)
          (∑ k : Fin 2048, x (ix2 p k) * deq (G := 16) rfl qu su zu c k) := by
  unfold Cert.KernelIdeal.Gen.k0_pay1
  refine (gated_tile_apply _ rfl _ _ _ _ p c).trans ?_
  refine congrArg₂ swi (Finset.sum_congr rfl fun k _ => ?_) (Finset.sum_congr rfl fun k _ => ?_)
  · exact congrArg (x (ix2 p k) * ·) (chain_apply (G := 16) rfl qg sg zg _ _ _ _ c k)
  · exact congrArg (x (ix2 p k) * ·) (chain_apply (G := 16) rfl qu su zu _ _ _ _ c k)

/-- What the second kernel stores for a tile, at (p, c): the dot product of row p of the intermediate tile with the
    dequantized down row c of the tile. -/
theorem down_tile_apply (qd : Vec Ideal Cert.KernelIdeal.S256x5632 .i32) (sd zd : Vec Ideal Cert.KernelIdeal.S256x44 .f32)
    (y : Vec Ideal Cert.KernelIdeal.S512x5632 .bf16) [Cert.KernelIdeal.Facts] (p : Fin 512) (c : Fin 256) :
    Cert.KernelIdeal.Gen.k1_pay1 (F := Ideal) qd sd zd y (ix2 p c)
      = ∑ k : Fin 5632, y (ix2 p k) * deq (G := 44) rfl qd sd zd c k := by
  unfold Cert.KernelIdeal.Gen.k1_pay1
  have hD : Cert.KernelIdeal.dot_S512x5632_S256x5632_S512x256_1_1_0_0_n_n = DotDims.transposedRhs 512 5632 256 := rfl
  show FloatOps.matmul Cert.KernelIdeal.dot_S512x5632_S256x5632_S512x256_1_1_0_0_n_n none _ _
      (constant (F := Ideal) ⟨2, ![512, 256]⟩ .f32 0x00000000#32) (ix2 p c) = _
  rw [hD]
  refine (lastLast_matmul_zero_apply _ _ p c).trans (Finset.sum_congr rfl fun k _ => ?_)
  refine congrArg₂ (· * ·) ?_ (chain_apply (G := 44) rfl qd sd zd _ _ _ _ c k)
  exact congrFun (shapeCast_self y _) (ix2 p k)

end Cert.Swiglu

end
-- ==== Proof.GateUpRegion.lean ====
/- The first kernel over its whole grid: the intermediate array it leaves.
   The grid has 11 × 16 points; point t handles token tile t % 16 (512 tokens) and weight tile t / 16 (512 rows of the gate
   and up weights), reads the tokens' full rows, the weight rows' full codes and their per-group scales and zero points,
   and writes block (t % 16, t / 16) of the [8192, 5632] intermediate. Each element of a block sits in its array at
   block index · block size + its coordinate inside the block, so what point t writes is block t of ONE function of
   the arrays the region finds (the specification's intermediate), and the 176 blocks tile the array: element (r, i) is
   in the block of the point with t % 16 = r / 512 and t / 16 = i / 512. -/
import proofs.«179575_j12352325943572_1_alg».proof.Proof.Gen.KernelIdeal.Frame
import proofs.«179575_j12352325943572_1_alg».proof.Proof.Tiles
import Idealize.ShloMosaic.Lib.Pipeline.Value

noncomputable section

namespace Cert.KernelIdeal.GateUpRegion

open Cert.KernelIdeal Cert.KernelIdeal.Gen Idealize.ShloMosaic Idealize.ShloMosaic.TcCoe Idealize.SL.Sem
open Idealize.ShloMosaic.ValueIdx
open Idealize.ShloMosaic.Pipeline (Dat)
open Cert.Swiglu Cert.Lib.Dequant

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The index maps over the grid -/

/-- The output's block at point t: token tile t % 16, weight tile t / 16. -/
theorem idx_out : ∀ t : Fin cfg0.N, win0_7.index t (0 : Fin 2) = t.val % 16 ∧ win0_7.index t (1 : Fin 2) = t.val / 16 :=
  (by decide +kernel : ∀ t : Fin grid0.N, win0_7.index t (0 : Fin 2) = t.val % 16 ∧ win0_7.index t (1 : Fin 2) = t.val / 16)

/-- The tokens' block moves with the output's token tile and spans the whole hidden axis. -/
theorem idx_x : ∀ t : Fin cfg0.N, win0_0.index t (0 : Fin 2) = win0_7.index t (0 : Fin 2) ∧ win0_0.index t (1 : Fin 2) = 0 :=
  (by decide +kernel : ∀ t : Fin grid0.N, _)

/-- Each weight-side block moves with the output's weight tile and spans its whole second axis. -/
theorem idx_w : ∀ t : Fin cfg0.N,
    (win0_1.index t (0 : Fin 2) = win0_7.index t (1 : Fin 2) ∧ win0_1.index t (1 : Fin 2) = 0)
    ∧ (win0_2.index t (0 : Fin 2) = win0_7.index t (1 : Fin 2) ∧ win0_2.index t (1 : Fin 2) = 0)
    ∧ (win0_3.index t (0 : Fin 2) = win0_7.index t (1 : Fin 2) ∧ win0_3.index t (1 : Fin 2) = 0)
    ∧ (win0_4.index t (0 : Fin 2) = win0_7.index t (1 : Fin 2) ∧ win0_4.index t (1 : Fin 2) = 0)
    ∧ (win0_5.index t (0 : Fin 2) = win0_7.index t (1 : Fin 2) ∧ win0_5.index t (1 : Fin 2) = 0)
    ∧ (win0_6.index t (0 : Fin 2) = win0_7.index t (1 : Fin 2) ∧ win0_6.index t (1 : Fin 2) = 0) :=
  (by decide +kernel : ∀ t : Fin grid0.N, _)

theorem t_lt (t : Fin cfg0.N) : t.val < 176 := by
  have h := t.isLt
  have hN : cfg0.N = 176 := N_0
  omega

/-- The array row of token p of point t's tile. -/
def tokRow (t : Fin cfg0.N) (p : Fin 512) : Fin 8192 :=
  ⟨win0_7.index t (0 : Fin 2) * 512 + p.val, by have := (idx_out t).1; have := p.isLt; omega⟩

/-- The array row of weight row q of point t's tile. -/
def wRow (t : Fin cfg0.N) (q : Fin 512) : Fin 5632 :=
  ⟨win0_7.index t (1 : Fin 2) * 512 + q.val, by have := (idx_out t).2; have := t_lt t; have := q.isLt; omega⟩

/-! ## The blocks, read where the arrays hold them -/

theorem blk_x (c : Dev nD) (t : Fin cfg0.N) (p : Fin 512) (k : Fin 2048) :
    iblk0 V c 0 t (ix2 p k) = V c main_arg0 (ix2 (tokRow t p) k) := by
  show V c main_arg0 (((cfg0.win 0).blk t).view.emb (ix2 p k)) = V c main_arg0 (ix2 (tokRow t p) k)
  refine congrArg (V c main_arg0) (funext fun a => Fin.ext ?_)
  obtain ⟨e0, e1⟩ := idx_x t
  match a with
  | ⟨0, _⟩ => show win0_0.index t (0 : Fin 2) * 512 + 1 * p.val = win0_7.index t (0 : Fin 2) * 512 + p.val; omega
  | ⟨1, _⟩ => show win0_0.index t (1 : Fin 2) * 2048 + 1 * k.val = k.val; omega

theorem blk_qg (c : Dev nD) (t : Fin cfg0.N) (q : Fin 512) (k : Fin 2048) :
    iblk0 V c 1 t (ix2 q k) = V c main_arg1 (ix2 (wRow t q) k) := by
  show V c main_arg1 (((cfg0.win 1).blk t).view.emb (ix2 q k)) = V c main_arg1 (ix2 (wRow t q) k)
  refine congrArg (V c main_arg1) (funext fun a => Fin.ext ?_)
  obtain ⟨⟨e0, e1⟩, -⟩ := idx_w t
  match a with
  | ⟨0, _⟩ => show win0_1.index t (0 : Fin 2) * 512 + 1 * q.val = win0_7.index t (1 : Fin 2) * 512 + q.val; omega
  | ⟨1, _⟩ => show win0_1.index t (1 : Fin 2) * 2048 + 1 * k.val = k.val; omega

theorem blk_sg (c : Dev nD) (t : Fin cfg0.N) (q : Fin 512) (g : Fin 16) :
    iblk0 V c 2 t (ix2 q g) = V c main_arg2 (ix2 (wRow t q) g) := by
  show V c main_arg2 (((cfg0.win 2).blk t).view.emb (ix2 q g)) = V c main_arg2 (ix2 (wRow t q) g)
  refine congrArg (V c main_arg2) (funext fun a => Fin.ext ?_)
  obtain ⟨-, ⟨e0, e1⟩, -⟩ := idx_w t
  match a with
  | ⟨0, _⟩ => show win0_2.index t (0 : Fin 2) * 512 + 1 * q.val = win0_7.index t (1 : Fin 2) * 512 + q.val; omega
  | ⟨1, _⟩ => show win0_2.index t (1 : Fin 2) * 16 + 1 * g.val = g.val; omega

theorem blk_zg (c : Dev nD) (t : Fin cfg0.N) (q : Fin 512) (g : Fin 16) :
    iblk0 V c 3 t (ix2 q g) = V c main_arg3 (ix2 (wRow t q) g) := by
  show V c main_arg3 (((cfg0.win 3).blk t).view.emb (ix2 q g)) = V c main_arg3 (ix2 (wRow t q) g)
  refine congrArg (V c main_arg3) (funext fun a => Fin.ext ?_)
  obtain ⟨-, -, ⟨e0, e1⟩, -⟩ := idx_w t
  match a with
  | ⟨0, _⟩ => show win0_3.index t (0 : Fin 2) * 512 + 1 * q.val = win0_7.index t (1 : Fin 2) * 512 + q.val; omega
  | ⟨1, _⟩ => show win0_3.index t (1 : Fin 2) * 16 + 1 * g.val = g.val; omega

theorem blk_qu (c : Dev nD) (t : Fin cfg0.N) (q : Fin 512) (k : Fin 2048) :
    iblk0 V c 4 t (ix2 q k) = V c main_arg4 (ix2 (wRow t q) k) := by
  show V c main_arg4 (((cfg0.win 4).blk t).view.emb (ix2 q k)) = V c main_arg4 (ix2 (wRow t q) k)
  refine congrArg (V c main_arg4) (funext fun a => Fin.ext ?_)
  obtain ⟨-, -, -, ⟨e0, e1⟩, -⟩ := idx_w t
  match a with
  | ⟨0, _⟩ => show win0_4.index t (0 : Fin 2) * 512 + 1 * q.val = win0_7.index t (1 : Fin 2) * 512 + q.val; omega
  | ⟨1, _⟩ => show win0_4.index t (1 : Fin 2) * 2048 + 1 * k.val = k.val; omega

theorem blk_su (c : Dev nD) (t : Fin cfg0.N) (q : Fin 512) (g : Fin 16) :
    iblk0 V c 5 t (ix2 q g) = V c main_arg5 (ix2 (wRow t q) g) := by
  show V c main_arg5 (((cfg0.win 5).blk t).view.emb (ix2 q g)) = V c main_arg5 (ix2 (wRow t q) g)
  refine congrArg (V c main_arg5) (funext fun a => Fin.ext ?_)
  obtain ⟨-, -, -, -, ⟨e0, e1⟩, -⟩ := idx_w t
  match a with
  | ⟨0, _⟩ => show win0_5.index t (0 : Fin 2) * 512 + 1 * q.val = win0_7.index t (1 : Fin 2) * 512 + q.val; omega
  | ⟨1, _⟩ => show win0_5.index t (1 : Fin 2) * 16 + 1 * g.val = g.val; omega

theorem blk_zu (c : Dev nD) (t : Fin cfg0.N) (q : Fin 512) (g : Fin 16) :
    iblk0 V c 6 t (ix2 q g) = V c main_arg6 (ix2 (wRow t q) g) := by
  show V c main_arg6 (((cfg0.win 6).blk t).view.emb (ix2 q g)) = V c main_arg6 (ix2 (wRow t q) g)
  refine congrArg (V c main_arg6) (funext fun a => Fin.ext ?_)
  obtain ⟨-, -, -, -, -, e0, e1⟩ := idx_w t
  match a with
  | ⟨0, _⟩ => show win0_6.index t (0 : Fin 2) * 512 + 1 * q.val = win0_7.index t (1 : Fin 2) * 512 + q.val; omega
  | ⟨1, _⟩ => show win0_6.index t (1 : Fin 2) * 16 + 1 * g.val = g.val; omega

/-- A dequantized row of the tile's gate weights is the array's dequantized row. -/
theorem deq_g (c : Dev nD) (t : Fin cfg0.N) (q : Fin 512) (k : Fin 2048) :
    deq (G := 16) rfl (iblk0 V c 1 t) (iblk0 V c 2 t) (iblk0 V c 3 t) q k
      = deq (G := 16) rfl (V c main_arg1) (V c main_arg2) (V c main_arg3) (wRow t q) k := by
  unfold deq
  rw [blk_qg V c t q k, blk_sg V c t q, blk_zg V c t q]

/-- A dequantized row of the tile's up weights is the array's dequantized row. -/
theorem deq_u (c : Dev nD) (t : Fin cfg0.N) (q : Fin 512) (k : Fin 2048) :
    deq (G := 16) rfl (iblk0 V c 4 t) (iblk0 V c 5 t) (iblk0 V c 6 t) q k
      = deq (G := 16) rfl (V c main_arg4) (V c main_arg5) (V c main_arg6) (wRow t q) k := by
  unfold deq
  rw [blk_qu V c t q k, blk_su V c t q, blk_zu V c t q]

/-! ## What a point writes back, and the whole array -/

/-- The intermediate as a function of the arrays the region finds. -/
abbrev inter (c : Dev nD) : S8192x5632.Idx → EReal :=
  gateUp (V c main_arg0) (V c main_arg1) (V c main_arg2) (V c main_arg3) (V c main_arg4) (V c main_arg5) (V c main_arg6)

/-- Point t writes back block t of the intermediate. -/
theorem flushed_eq (c : Dev nD) (t : Fin cfg0.N) :
    (dat0 V c).flushed 7 t = ((cfg0.win 7).blk t).view.read (Elt Ideal) (inter V c) := by
  show (cfg0.win 7).cut (grid0.coords t) ((dat0 V c).after 7 t) = _
  rw [after0_7]
  unfold out0_7
  rw [View.canon_unit_zero hz]
  simp only [View.ld_unit_zero (S := S512x2048) hz, View.ld_unit_zero (S := S512x16) hz]
  funext y
  obtain ⟨p, q, rfl⟩ : ∃ (p q : Fin 512), y = ix2 p q := ⟨y 0, y 1, eq_ix2 y⟩
  show k0_pay1 (F := Ideal) (iblk0 V c 1 t) (iblk0 V c 2 t) (iblk0 V c 3 t) (iblk0 V c 4 t) (iblk0 V c 5 t) (iblk0 V c 6 t)
      (iblk0 V c 0 t) (ix2 p q) = inter V c (((cfg0.win 7).blk t).view.emb (ix2 p q))
  refine (gateUp_tile_apply (iblk0 V c 1 t) (iblk0 V c 2 t) (iblk0 V c 3 t) (iblk0 V c 4 t) (iblk0 V c 5 t) (iblk0 V c 6 t)
      (iblk0 V c 0 t) p q).trans ?_
  have er : (((cfg0.win 7).blk t).view.emb (ix2 p q) : S8192x5632.Idx) 0 = tokRow t p :=
    Fin.ext (by show win0_7.index t (0 : Fin 2) * 512 + 1 * p.val = win0_7.index t (0 : Fin 2) * 512 + p.val; omega)
  have ec : (((cfg0.win 7).blk t).view.emb (ix2 p q) : S8192x5632.Idx) 1 = wRow t q :=
    Fin.ext (by show win0_7.index t (1 : Fin 2) * 512 + 1 * q.val = win0_7.index t (1 : Fin 2) * 512 + q.val; omega)
  show _ = gateUpAt (V c main_arg0) (V c main_arg1) (V c main_arg2) (V c main_arg3) (V c main_arg4) (V c main_arg5) (V c main_arg6)
      ((((cfg0.win 7).blk t).view.emb (ix2 p q) : S8192x5632.Idx) 0) ((((cfg0.win 7).blk t).view.emb (ix2 p q) : S8192x5632.Idx) 1)
  rw [er, ec]
  unfold gateUpAt
  refine congrArg₂ swi (Finset.sum_congr rfl fun k _ => ?_) (Finset.sum_congr rfl fun k _ => ?_)
  · rw [blk_x V c t p k, deq_g V c t q k]
  · rw [blk_x V c t p k, deq_u V c t q k]

/-- An index of the array is in point t's block iff each coordinate is in the block's range on its axis. -/
theorem mem_blk (t : Fin cfg0.N) (i : S8192x5632.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v0).slice (win0_7.rect t)).set ↔ _
  rw [View.set_slice_whole, Rect.mem_set_unit]
  exact Iff.rfl

/-- Every index of the intermediate is in some point's block. -/
theorem cover (i : S8192x5632.Idx) : ∃ t : Fin cfg0.N, (cfg0.win 7).flush t = true ∧ i ∈ ((cfg0.win 7).blk t).view.set := by
  have hi0 : (i 0).val < 8192 := (i 0).isLt
  have hi1 : (i 1).val < 5632 := (i 1).isLt
  have hN : cfg0.N = 176 := N_0
  let t : Fin cfg0.N := ⟨(i 1).val / 512 * 16 + (i 0).val / 512, by omega⟩
  obtain ⟨q0, q1⟩ := idx_out t
  have tv : t.val = (i 1).val / 512 * 16 + (i 0).val / 512 := rfl
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 512 ≤ (i 1).val ∧ (i 1).val < win0_7.index t (1 : Fin 2) * 512 + 512; omega

/-- After the region the intermediate array holds the specification's intermediate of the arrays the region found. -/
theorem final (c : Dev nD) : (dat0 V c).arrAt 7 cfg0.N = inter V c :=
  (dat0 V c).arrAt_eq_of_cover 7 (inter V c) (fun t _ => flushed_eq V c t) cover

end Cert.KernelIdeal.GateUpRegion

end
-- ==== Proof.DownRegion.lean ====
/- The second kernel over its whole grid: the result array it leaves.
   The grid has 8 × 16 points; point t handles token tile t % 16 (512 tokens) and weight tile t / 16 (256 rows of the down
   weights), reads the tokens' full rows of the intermediate, the weight rows' full codes and their per-group scales and
   zero points, and writes block (t % 16, t / 16) of the [8192, 2048] result. What point t writes is block t of ONE function
   of the arrays the region finds (the specification's result of the intermediate array as found), and the 128 blocks
   tile the array: element (r, h) is in the block of the point with t % 16 = r / 512 and t / 16 = h / 256. -/
import proofs.«179575_j12352325943572_1_alg».proof.Proof.Gen.KernelIdeal.Frame
import proofs.«179575_j12352325943572_1_alg».proof.Proof.Tiles
import Idealize.ShloMosaic.Lib.Pipeline.Value

noncomputable section

namespace Cert.KernelIdeal.DownRegion

open Cert.KernelIdeal Cert.KernelIdeal.Gen Idealize.ShloMosaic Idealize.ShloMosaic.TcCoe Idealize.SL.Sem
open Idealize.ShloMosaic.ValueIdx
open Idealize.ShloMosaic.Pipeline (Dat)
open Cert.Swiglu Cert.Lib.Dequant

-- the TensorCore's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-! ## The index maps over the grid -/

/-- The output's block at point t: token tile t % 16, weight tile t / 16. -/
theorem idx_out : ∀ t : Fin cfg1.N, win1_4.index t (0 : Fin 2) = t.val % 16 ∧ win1_4.index t (1 : Fin 2) = t.val / 16 :=
  (by decide +kernel : ∀ t : Fin grid1.N, win1_4.index t (0 : Fin 2) = t.val % 16 ∧ win1_4.index t (1 : Fin 2) = t.val / 16)

/-- The intermediate's block moves with the output's token tile and spans the whole intermediate axis. -/
theorem idx_y : ∀ t : Fin cfg1.N, win1_0.index t (0 : Fin 2) = win1_4.index t (0 : Fin 2) ∧ win1_0.index t (1 : Fin 2) = 0 :=
  (by decide +kernel : ∀ t : Fin grid1.N, _)

/-- Each weight-side block moves with the output's weight tile and spans its whole second axis. -/
theorem idx_w : ∀ t : Fin cfg1.N,
    (win1_1.index t (0 : Fin 2) = win1_4.index t (1 : Fin 2) ∧ win1_1.index t (1 : Fin 2) = 0)
    ∧ (win1_2.index t (0 : Fin 2) = win1_4.index t (1 : Fin 2) ∧ win1_2.index t (1 : Fin 2) = 0)
    ∧ (win1_3.index t (0 : Fin 2) = win1_4.index t (1 : Fin 2) ∧ win1_3.index t (1 : Fin 2) = 0) :=
  (by decide +kernel : ∀ t : Fin grid1.N, _)

theorem t_lt (t : Fin cfg1.N) : t.val < 128 := by
  have h := t.isLt
  have hN : cfg1.N = 128 := N_1
  omega

/-- The array row of token p of point t's tile. -/
def tokRow (t : Fin cfg1.N) (p : Fin 512) : Fin 8192 :=
  ⟨win1_4.index t (0 : Fin 2) * 512 + p.val, by have := (idx_out t).1; have := p.isLt; omega⟩

/-- The array row of weight row q of point t's tile. -/
def wRow (t : Fin cfg1.N) (q : Fin 256) : Fin 2048 :=
  ⟨win1_4.index t (1 : Fin 2) * 256 + q.val, by have := (idx_out t).2; have := t_lt t; have := q.isLt; omega⟩

/-! ## The blocks, read where the arrays hold them -/

theorem blk_y (c : Dev nD) (t : Fin cfg1.N) (p : Fin 512) (k : Fin 5632) :
    iblk1 V c 0 t (ix2 p k) = V c main_v0 (ix2 (tokRow t p) k) := by
  show V c main_v0 (((cfg1.win 0).blk t).view.emb (ix2 p k)) = V c main_v0 (ix2 (tokRow t p) k)
  refine congrArg (V c main_v0) (funext fun a => Fin.ext ?_)
  obtain ⟨e0, e1⟩ := idx_y t
  match a with
  | ⟨0, _⟩ => show win1_0.index t (0 : Fin 2) * 512 + 1 * p.val = win1_4.index t (0 : Fin 2) * 512 + p.val; omega
  | ⟨1, _⟩ => show win1_0.index t (1 : Fin 2) * 5632 + 1 * k.val = k.val; omega

theorem blk_qd (c : Dev nD) (t : Fin cfg1.N) (q : Fin 256) (k : Fin 5632) :
    iblk1 V c 1 t (ix2 q k) = V c main_arg7 (ix2 (wRow t q) k) := by
  show V c main_arg7 (((cfg1.win 1).blk t).view.emb (ix2 q k)) = V c main_arg7 (ix2 (wRow t q) k)
  refine congrArg (V c main_arg7) (funext fun a => Fin.ext ?_)
  obtain ⟨⟨e0, e1⟩, -⟩ := idx_w t
  match a with
  | ⟨0, _⟩ => show win1_1.index t (0 : Fin 2) * 256 + 1 * q.val = win1_4.index t (1 : Fin 2) * 256 + q.val; omega
  | ⟨1, _⟩ => show win1_1.index t (1 : Fin 2) * 5632 + 1 * k.val = k.val; omega

theorem blk_sd (c : Dev nD) (t : Fin cfg1.N) (q : Fin 256) (g : Fin 44) :
    iblk1 V c 2 t (ix2 q g) = V c main_arg8 (ix2 (wRow t q) g) := by
  show V c main_arg8 (((cfg1.win 2).blk t).view.emb (ix2 q g)) = V c main_arg8 (ix2 (wRow t q) g)
  refine congrArg (V c main_arg8) (funext fun a => Fin.ext ?_)
  obtain ⟨-, ⟨e0, e1⟩, -⟩ := idx_w t
  match a with
  | ⟨0, _⟩ => show win1_2.index t (0 : Fin 2) * 256 + 1 * q.val = win1_4.index t (1 : Fin 2) * 256 + q.val; omega
  | ⟨1, _⟩ => show win1_2.index t (1 : Fin 2) * 44 + 1 * g.val = g.val; omega

theorem blk_zd (c : Dev nD) (t : Fin cfg1.N) (q : Fin 256) (g : Fin 44) :
    iblk1 V c 3 t (ix2 q g) = V c main_arg9 (ix2 (wRow t q) g) := by
  show V c main_arg9 (((cfg1.win 3).blk t).view.emb (ix2 q g)) = V c main_arg9 (ix2 (wRow t q) g)
  refine congrArg (V c main_arg9) (funext fun a => Fin.ext ?_)
  obtain ⟨-, -, e0, e1⟩ := idx_w t
  match a with
  | ⟨0, _⟩ => show win1_3.index t (0 : Fin 2) * 256 + 1 * q.val = win1_4.index t (1 : Fin 2) * 256 + q.val; omega
  | ⟨1, _⟩ => show win1_3.index t (1 : Fin 2) * 44 + 1 * g.val = g.val; omega

/-- A dequantized row of the tile's down weights is the array's dequantized row. -/
theorem deq_d (c : Dev nD) (t : Fin cfg1.N) (q : Fin 256) (k : Fin 5632) :
    deq (G := 44) rfl (iblk1 V c 1 t) (iblk1 V c 2 t) (iblk1 V c 3 t) q k
      = deq (G := 44) rfl (V c main_arg7) (V c main_arg8) (V c main_arg9) (wRow t q) k := by
  unfold deq
  rw [blk_qd V c t q k, blk_sd V c t q, blk_zd V c t q]

/-! ## What a point writes back, and the whole array -/

/-- The result as a function of the arrays the region finds. -/
abbrev result (c : Dev nD) : S8192x2048.Idx → EReal :=
  down (V c main_v0) (V c main_arg7) (V c main_arg8) (V c main_arg9)

/-- Point t writes back block t of the result. -/
theorem flushed_eq (c : Dev nD) (t : Fin cfg1.N) :
    (dat1 V c).flushed 4 t = ((cfg1.win 4).blk t).view.read (Elt Ideal) (result V c) := by
  show (cfg1.win 4).cut (grid1.coords t) ((dat1 V c).after 4 t) = _
  rw [after1_4]
  unfold out1_4
  rw [View.canon_unit_zero hz]
  simp only [View.ld_unit_zero (S := S256x5632) hz, View.ld_unit_zero (S := S256x44) hz, View.ld_unit_zero (S := S512x5632) hz]
  funext y
  obtain ⟨p, q, rfl⟩ : ∃ (p : Fin 512) (q : Fin 256), y = ix2 p q := ⟨y 0, y 1, eq_ix2 y⟩
  show k1_pay1 (F := Ideal) (iblk1 V c 1 t) (iblk1 V c 2 t) (iblk1 V c 3 t) (iblk1 V c 0 t) (ix2 p q)
      = result V c (((cfg1.win 4).blk t).view.emb (ix2 p q))
  refine (down_tile_apply (iblk1 V c 1 t) (iblk1 V c 2 t) (iblk1 V c 3 t) (iblk1 V c 0 t) p q).trans ?_
  have er : (((cfg1.win 4).blk t).view.emb (ix2 p q) : S8192x2048.Idx) 0 = tokRow t p :=
    Fin.ext (by show win1_4.index t (0 : Fin 2) * 512 + 1 * p.val = win1_4.index t (0 : Fin 2) * 512 + p.val; omega)
  have ec : (((cfg1.win 4).blk t).view.emb (ix2 p q) : S8192x2048.Idx) 1 = wRow t q :=
    Fin.ext (by show win1_4.index t (1 : Fin 2) * 256 + 1 * q.val = win1_4.index t (1 : Fin 2) * 256 + q.val; omega)
  show _ = downAt (V c main_v0) (V c main_arg7) (V c main_arg8) (V c main_arg9)
      ((((cfg1.win 4).blk t).view.emb (ix2 p q) : S8192x2048.Idx) 0) ((((cfg1.win 4).blk t).view.emb (ix2 p q) : S8192x2048.Idx) 1)
  rw [er, ec]
  unfold downAt
  refine Finset.sum_congr rfl fun k _ => ?_
  rw [blk_y V c t p k, deq_d V c t q k]

/-- An index of the array is in point t's block iff each coordinate is in the block's range on its axis. -/
theorem mem_blk (t : Fin cfg1.N) (i : S8192x2048.Idx) :
    i ∈ ((cfg1.win 4).blk t).view.set ↔ ∀ a : Fin 2, win1_4.index t a * S512x256.size a ≤ (i a).val ∧ (i a).val < win1_4.index t a * S512x256.size a + S512x256.size a := by
  show i ∈ ((View.whole main_v1).slice (win1_4.rect t)).set ↔ _
  rw [View.set_slice_whole, Rect.mem_set_unit]
  exact Iff.rfl

/-- Every index of the result is in some point's block. -/
theorem cover (i : S8192x2048.Idx) : ∃ t : Fin cfg1.N, (cfg1.win 4).flush t = true ∧ i ∈ ((cfg1.win 4).blk t).view.set := by
  have hi0 : (i 0).val < 8192 := (i 0).isLt
  have hi1 : (i 1).val < 2048 := (i 1).isLt
  have hN : cfg1.N = 128 := N_1
  let t : Fin cfg1.N := ⟨(i 1).val / 256 * 16 + (i 0).val / 512, by omega⟩
  obtain ⟨q0, q1⟩ := idx_out t
  have tv : t.val = (i 1).val / 256 * 16 + (i 0).val / 512 := rfl
  refine ⟨t, flush1_4 t, ?_⟩
  rw [mem_blk]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 256 ≤ (i 1).val ∧ (i 1).val < win1_4.index t (1 : Fin 2) * 256 + 256; omega

/-- After the region the result array holds the specification's result of the arrays the region found. -/
theorem final (c : Dev nD) : (dat1 V c).arrAt 4 cfg1.N = result V c :=
  (dat1 V c).arrAt_eq_of_cover 4 (result V c) (fun t _ => flushed_eq V c t) cover

end Cert.KernelIdeal.DownRegion

end
-- ==== Proof.KernelRun.lean ====
/- The kernel program's run, with its result named as the specification of the launch arrays.
   The program is two regions in a row. Region 1 reads the [8192, 5632] intermediate that region 0 wrote and three
   argument arrays no region writes; region 0 reads seven argument arrays. So after the run the result buffer holds
   the second kernel's whole-array function of (the first kernel's whole-array function of the launch arrays) and
   the launch arrays: the specification's result of the specification's intermediate. The run itself is the
   two regions' run over the thread state "every unscoped buffer at the boundary's contents", with the last
   boundary's contents read back at the result buffer as well as at the arguments. -/
import proofs.«179575_j12352325943572_1_alg».proof.Proof.Gen.KernelIdeal.Frame
import proofs.«179575_j12352325943572_1_alg».proof.Proof.GateUpRegion
import proofs.«179575_j12352325943572_1_alg».proof.Proof.DownRegion

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Swiglu

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result buffer at the last
    boundary's contents and the argument arrays as launched. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c),
       (h c _ (mem_uc main_arg9 (by decide))).trans (W2_main_arg9 m ρ c)⟩)

end Cert.KernelIdeal.Run

namespace Cert.KernelIdeal.Run

open Cert.KernelIdeal Cert.KernelIdeal.Gen Idealize.ShloMosaic Idealize.ShloMosaic.TcCoe Idealize.SL.Sem Cert.Swiglu

variable (m : (ℓ : Loc nD τ sig) → Buf (Elt Ideal) ℓ) (ρ : Dev nD → PrngReg)

/-- The specification of the launch arrays of core c. -/
abbrev spec (c : Dev nD) : S8192x2048.Idx → EReal :=
  down (gateUp (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)))
    (m ((c.tc : Thread nD τ).loc main_arg7)) (m ((c.tc : Thread nD τ).loc main_arg8))
    (m ((c.tc : Thread nD τ).loc main_arg9))

/-- What region 1 finds in the intermediate array: region 0's whole-array function of the launch arrays. -/
theorem found_inter (c : Dev nD) :
    V1 m ρ c main_v0 = gateUp (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) :=
  (W1_arr m ρ c 7).trans (GateUpRegion.final (V0 m ρ) c)

/-- The down-side argument arrays are as launched when region 1 is entered: region 0 has no window on them. -/
theorem found_qd (c : Dev nD) : V1 m ρ c main_arg7 = m ((c.tc : Thread nD τ).loc main_arg7) :=
  W1_of_ne m ρ c main_arg7 (by decide)
theorem found_sd (c : Dev nD) : V1 m ρ c main_arg8 = m ((c.tc : Thread nD τ).loc main_arg8) :=
  W1_of_ne m ρ c main_arg8 (by decide)
theorem found_zd (c : Dev nD) : V1 m ρ c main_arg9 = m ((c.tc : Thread nD τ).loc main_arg9) :=
  W1_of_ne m ρ c main_arg9 (by decide)

/-- The last boundary's contents at the result buffer: the specification of the launch arrays. -/
theorem result_value (c : Dev nD) : W2 m ρ c (Proc.devRef .tc main_v1) = spec m c := by
  refine (W2_arr m ρ c 4).trans ((DownRegion.final (V1 m ρ) c).trans ?_)
  show down (V1 m ρ c main_v0) (V1 m ρ c main_arg7) (V1 m ρ c main_arg8) (V1 m ρ c main_arg9) = _
  rw [found_inter m ρ c, found_qd m ρ c, found_sd m ρ c, found_zd m ρ c]

/-- The program's run at the extended reals: the result is the specification of the launch arrays, which end unchanged. -/
theorem run : θ_run defs (onTc (τ := τ) (main (F := Ideal))) ⟨m, fun _ => 0, ρ⟩ (fun r => ∀ c : Dev nD,
      r.2.mem ((c.tc : Thread nD τ).loc main_v1) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_value m ρ c), (h c).2⟩) (run_named (F := Ideal) m ρ)

end Cert.KernelIdeal.Run

end
-- ==== Proof.RefValue.lean ====
/- The reference, read entry by entry, is the specification.
   Its three weight matrices are dequantized by the same layout chain ([rows, groups, 128], the tables spread through
   [rows, groups, 1]) and transposed; read at (k, row) each is the dequantized entry (row, k): the transposition swaps the
   coordinates, and the two reshapes send column k to (k / 128, k % 128) and back. The gate and the up matrix go through
   the same chain of operations on different arguments, so the up matrix's read is the gate matrix's. Its three products
   are host contractions of a left operand's second axis with a right operand's first axis, that is the sums over k of
   left(t, k) · right(k, ·). Its activation is written x · (1 / (1 + exp(−x))), which is x · logistic x. -/
import proofs.«179575_j12352325943572_1_alg».proof.Proof.Gen.ReferenceIdeal.Read
import proofs.«179575_j12352325943572_1_alg».proof.Proof.Spec
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx
open Cert.Swiglu Cert.Lib.Dequant

/-- The transposed gate weights at (k, i): the dequantized gate entry (i, k). -/
theorem wg_apply (x1 : (⟨S5632x2048, .i32⟩ : BufTy).Contents (Elt Ideal)) (x2 x3 : (⟨S5632x16, .f32⟩ : BufTy).Contents (Elt Ideal))
    (k : Fin 2048) (i : Fin 5632) :
    val_main_v27 (F := Ideal) x1 x2 x3 (ix2 k i) = deq (G := 16) rfl x1 x2 x3 i k := by
  have hk := k.isLt
  have hi := i.isLt
  have e1 : idx_main_v1 (idx_main_v8 (idx_main_v27 (ix2 k i))) = ix2 i k := funext fun a => Fin.ext (by
    match a with
    | ⟨0, _⟩ =>
      show (((i.val * 2048 + k.val) / 2048 * 16 + (i.val * 2048 + k.val) / 128 % 16) * 128 + (i.val * 2048 + k.val) % 128) / 2048 = i.val
      omega
    | ⟨1, _⟩ =>
      show (((i.val * 2048 + k.val) / 2048 * 16 + (i.val * 2048 + k.val) / 128 % 16) * 128 + (i.val * 2048 + k.val) % 128) % 2048 = k.val
      omega)
  have e2 : idx_main_v2 (idx_main_v3 (idx_main_v8 (idx_main_v27 (ix2 k i)))) = ix2 i (grp (G := 16) rfl k) :=
    funext fun a => Fin.ext (by
      match a with
      | ⟨0, _⟩ => show (i.val * 2048 + k.val) / 2048 = i.val; omega
      | ⟨1, _⟩ => show (i.val * 2048 + k.val) / 128 % 16 = k.val / 128; omega)
  have e3 : idx_main_v5 (idx_main_v6 (idx_main_v8 (idx_main_v27 (ix2 k i)))) = ix2 i (grp (G := 16) rfl k) :=
    funext fun a => Fin.ext (by
      match a with
      | ⟨0, _⟩ => show (i.val * 2048 + k.val) / 2048 = i.val; omega
      | ⟨1, _⟩ => show (i.val * 2048 + k.val) / 128 % 16 = k.val / 128; omega)
  rw [val_main_v27_apply, val_main_v8_apply, val_main_v7_apply, val_main_v4_apply, val_main_v1_apply,
    val_main_v0_apply, val_main_v3_apply, val_main_v2_apply, val_main_v6_apply, val_main_v5_apply, e1, e2, e3]
  rfl

/-- The up weights go through the gate weights' chain of operations, on the up arguments: one function. -/
theorem up_chain_eq (x4 : (⟨S5632x2048, .i32⟩ : BufTy).Contents (Elt Ideal)) (x5 x6 : (⟨S5632x16, .f32⟩ : BufTy).Contents (Elt Ideal)) :
    val_main_v30 (F := Ideal) x4 x5 x6 = val_main_v27 (F := Ideal) x4 x5 x6 := rfl

/-- The transposed up weights at (k, i): the dequantized up entry (i, k). -/
theorem wu_apply (x4 : (⟨S5632x2048, .i32⟩ : BufTy).Contents (Elt Ideal)) (x5 x6 : (⟨S5632x16, .f32⟩ : BufTy).Contents (Elt Ideal))
    (k : Fin 2048) (i : Fin 5632) :
    val_main_v30 (F := Ideal) x4 x5 x6 (ix2 k i) = deq (G := 16) rfl x4 x5 x6 i k := by
  rw [up_chain_eq]
  exact wg_apply x4 x5 x6 k i

/-- The transposed down weights at (k, h): the dequantized down entry (h, k). -/
theorem wd_apply (x7 : (⟨S2048x5632, .i32⟩ : BufTy).Contents (Elt Ideal)) (x8 x9 : (⟨S2048x44, .f32⟩ : BufTy).Contents (Elt Ideal))
    (k : Fin 5632) (h : Fin 2048) :
    val_main_v33 (F := Ideal) x7 x8 x9 (ix2 k h) = deq (G := 44) rfl x7 x8 x9 h k := by
  have hk := k.isLt
  have hh := h.isLt
  have e1 : idx_main_v19 (idx_main_v26 (idx_main_v33 (ix2 k h))) = ix2 h k := funext fun a => Fin.ext (by
    match a with
    | ⟨0, _⟩ =>
      show (((h.val * 5632 + k.val) / 5632 * 44 + (h.val * 5632 + k.val) / 128 % 44) * 128 + (h.val * 5632 + k.val) % 128) / 5632 = h.val
      omega
    | ⟨1, _⟩ =>
      show (((h.val * 5632 + k.val) / 5632 * 44 + (h.val * 5632 + k.val) / 128 % 44) * 128 + (h.val * 5632 + k.val) % 128) % 5632 = k.val
      omega)
  have e2 : idx_main_v20 (idx_main_v21 (idx_main_v26 (idx_main_v33 (ix2 k h)))) = ix2 h (grp (G := 44) rfl k) :=
    funext fun a => Fin.ext (by
      match a with
      | ⟨0, _⟩ => show (h.val * 5632 + k.val) / 5632 = h.val; omega
      | ⟨1, _⟩ => show (h.val * 5632 + k.val) / 128 % 44 = k.val / 128; omega)
  have e3 : idx_main_v23 (idx_main_v24 (idx_main_v26 (idx_main_v33 (ix2 k h)))) = ix2 h (grp (G := 44) rfl k) :=
    funext fun a => Fin.ext (by
      match a with
      | ⟨0, _⟩ => show (h.val * 5632 + k.val) / 5632 = h.val; omega
      | ⟨1, _⟩ => show (h.val * 5632 + k.val) / 128 % 44 = k.val / 128; omega)
  rw [val_main_v33_apply, val_main_v26_apply, val_main_v25_apply, val_main_v22_apply, val_main_v19_apply,
    val_main_v18_apply, val_main_v21_apply, val_main_v20_apply, val_main_v24_apply, val_main_v23_apply, e1, e2, e3]
  rfl

/-- The gated intermediate at (t, i) is the specification's. -/
theorem inter_apply (x0 : (⟨S8192x2048, .f32⟩ : BufTy).Contents (Elt Ideal))
    (x1 : (⟨S5632x2048, .i32⟩ : BufTy).Contents (Elt Ideal)) (x2 x3 : (⟨S5632x16, .f32⟩ : BufTy).Contents (Elt Ideal))
    (x4 : (⟨S5632x2048, .i32⟩ : BufTy).Contents (Elt Ideal)) (x5 x6 : (⟨S5632x16, .f32⟩ : BufTy).Contents (Elt Ideal))
    (t : Fin 8192) (i : Fin 5632) :
    val_main_v32 (F := Ideal) x0 x1 x2 x3 x4 x5 x6 (ix2 t i) = gateUpAt x0 x1 x2 x3 x4 x5 x6 t i := by
  have l28 : ∀ k, lidx_main_v28 (ix2 t i) k = ix2 t k := fun k => funext fun a => Fin.ext (by
    match a with
    | ⟨0, _⟩ => rfl
    | ⟨1, _⟩ => rfl)
  have r28 : ∀ k, ridx_main_v28 (ix2 t i) k = ix2 k i := fun k => funext fun a => Fin.ext (by
    match a with
    | ⟨0, _⟩ => rfl
    | ⟨1, _⟩ => rfl)
  have l31 : ∀ k, lidx_main_v31 (ix2 t i) k = ix2 t k := fun k => funext fun a => Fin.ext (by
    match a with
    | ⟨0, _⟩ => rfl
    | ⟨1, _⟩ => rfl)
  have r31 : ∀ k, ridx_main_v31 (ix2 t i) k = ix2 k i := fun k => funext fun a => Fin.ext (by
    match a with
    | ⟨0, _⟩ => rfl
    | ⟨1, _⟩ => rfl)
  rw [val_main_v32_apply, val_main_v29_apply, val_main_call0_v5_apply, val_main_call0_v4_apply, val_main_call0_cst_0_apply,
    val_main_call0_v3_apply, val_main_call0_v2_apply, val_main_call0_cst_apply, val_main_call0_v1_apply,
    val_main_call0_v0_apply, val_main_v28_apply, val_main_v31_apply]
  simp only [l28, r28, l31, r31, wg_apply, wu_apply, Ideal.mulf_def, Ideal.hostDivf_def, Ideal.addf_def,
    Ideal.hostUnary_exp_def, Ideal.hostNegf_def, Ideal.negf_def, Ideal.ofBits_def, Ideal.ofBits_one_f32]
  rfl

/-- The reference's result is the specification's result of the specification's intermediate. -/
theorem result_eq (x0 : (⟨S8192x2048, .f32⟩ : BufTy).Contents (Elt Ideal))
    (x1 : (⟨S5632x2048, .i32⟩ : BufTy).Contents (Elt Ideal)) (x2 x3 : (⟨S5632x16, .f32⟩ : BufTy).Contents (Elt Ideal))
    (x4 : (⟨S5632x2048, .i32⟩ : BufTy).Contents (Elt Ideal)) (x5 x6 : (⟨S5632x16, .f32⟩ : BufTy).Contents (Elt Ideal))
    (x7 : (⟨S2048x5632, .i32⟩ : BufTy).Contents (Elt Ideal)) (x8 x9 : (⟨S2048x44, .f32⟩ : BufTy).Contents (Elt Ideal)) :
    val_main_v34 (F := Ideal) x0 x1 x2 x3 x4 x5 x6 x7 x8 x9 = down (gateUp x0 x1 x2 x3 x4 x5 x6) x7 x8 x9 := by
  funext j
  obtain ⟨t, h, rfl⟩ : ∃ (t : Fin 8192) (h : Fin 2048), j = ix2 t h := ⟨j 0, j 1, eq_ix2 j⟩
  rw [val_main_v34_apply]
  show _ = downAt (gateUp x0 x1 x2 x3 x4 x5 x6) x7 x8 x9 t h
  unfold downAt
  refine Finset.sum_congr rfl fun k _ => ?_
  have l : lidx_main_v34 (ix2 t h) k = ix2 t k := funext fun a => Fin.ext (by
    match a with
    | ⟨0, _⟩ => rfl
    | ⟨1, _⟩ => rfl)
  have r : ridx_main_v34 (ix2 t h) k = ix2 k h := funext fun a => Fin.ext (by
    match a with
    | ⟨0, _⟩ => rfl
    | ⟨1, _⟩ => rfl)
  rw [l, r, inter_apply, wd_apply]
  rfl

end Cert.ReferenceIdeal.RefValue

end
-- ==== Proof.lean ====
/- The certificate: a two-kernel gated feed-forward block over 4-bit group-quantized weights against its jnp reference.
   Both programs compute, on the extended reals,
     y(t, i)   = swi(Σ_k x(t, k) · Wg(i, k), Σ_k x(t, k) · Wu(i, k)),   swi(a, b) = (a · logistic a) · b,
     out(t, h) = Σ_i y(t, i) · Wd(h, i),
   with every weight entry dequantized as (code − zero point of the column's group of 128) · scale of that group.
   The kernel program tiles the two stages over grids and contracts each tile over the whole reduction axis in one
   matrix product, so each of its sums is the reference's sum term by term: no sum is rearranged, and the precondition
   (finite inputs) is never opened. The first kernel stores the intermediate in a narrower float format, which is the
   identity on the extended reals. The reference spells the activation x · (1 / (1 + exp(−x))), which is x · logistic x.
   The three frames are the programs' runs with the result forgotten; the idealization rewrote nothing. -/
import proofs.«179575_j12352325943572_1_alg».proof.Defs
import proofs.«179575_j12352325943572_1_alg».proof.Proof.Gen.Kernel
import proofs.«179575_j12352325943572_1_alg».proof.Proof.Gen.Kernel.Skeleton
import proofs.«179575_j12352325943572_1_alg».proof.Proof.Gen.Kernel.Launch
import proofs.«179575_j12352325943572_1_alg».proof.Proof.Gen.Kernel.Points
import proofs.«179575_j12352325943572_1_alg».proof.Proof.Gen.Kernel.Frame
import proofs.«179575_j12352325943572_1_alg».proof.Proof.Gen.KernelIdeal
import proofs.«179575_j12352325943572_1_alg».proof.Proof.Gen.KernelIdeal.Skeleton
import proofs.«179575_j12352325943572_1_alg».proof.Proof.Gen.KernelIdeal.Launch
import proofs.«179575_j12352325943572_1_alg».proof.Proof.Gen.KernelIdeal.Points
import proofs.«179575_j12352325943572_1_alg».proof.Proof.Gen.KernelIdeal.Frame
import proofs.«179575_j12352325943572_1_alg».proof.Proof.Gen.ReferenceIdeal
import proofs.«179575_j12352325943572_1_alg».proof.Proof.Gen.Pre_finite_inputs
import proofs.«179575_j12352325943572_1_alg».proof.Proof.Gen.ReferenceIdeal.Run
import proofs.«179575_j12352325943572_1_alg».proof.Proof.Gen.ReferenceIdeal.Read
import proofs.«179575_j12352325943572_1_alg».proof.Proof.KernelRun
import proofs.«179575_j12352325943572_1_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs end with the specification of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Run.spec m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.result_eq]
  obtain ⟨a0, a1, a2, a3, a4, a5, a6, a7, a8, a9⟩ := hagree c
  rw [a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
